-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x128x2048 : Shape := ⟨4, ![64, 2, 128, 2048]⟩
abbrev S64 : Shape := ⟨1, ![64]⟩
abbrev S64x2 : Shape := ⟨2, ![64, 2]⟩
abbrev S_ : Shape := ⟨0, ![]⟩

class Facts : Prop where
  bcast_S_S64x2x128x2048 : S_.BroadcastsInDim S64x2x128x2048 (![] : Fin 0 → Fin S64x2x128x2048.rank)
  reducesTo_S64x2x128x2048_S_d0_1_2_3 : S64x2x128x2048.ReducesTo [0, 1, 2, 3] S_
  h_S_ : 0 < S_.numel
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_

variable [Facts]

def fn_part1 {F : FTy → Type} [FloatOps F] (main_arg4 : FVec F S64x2 .f32) (main_arg5 : FVec F S64x2 .f32) (main_arg6 : FVec F S64x2x128x2048 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S64x2 .f32 := Host.absf main_arg4
  let main_cst_6 : FVec F S_ .f32 := constant S_ .f32 0x7F800000#32
  let main_v20 : FVec F S64x2 .f32 := broadcastInDim S64x2 ![] bcast_S_S64x2 main_cst_6
  let main_v21 : IVec S64x2 1 := cmpf .olt main_v19 main_v20
  let main_c_7 : IVec S_ 1 := constantI S_ 1 1#1
  let main_v22 : IVec S_ 1 := (fun x v => Host.reduce IntOp.andi x v reducesTo_S64x2_S_d0_1 h_S_) main_v21 main_c_7
  let main_v23 : IVec S_ 1 := andi main_v18 main_v22
  let main_v24 : FVec F S64x2 .f32 := Host.absf main_arg5
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S64x2x128x2048 .f32 := Host.absf main_arg6
  let main_cst_10 : FVec F S_ .f32 := constant S_ .f32 0x7F800000#32
  let main_v30 : FVec F S64x2x128x2048 .f32 := broadcastInDim S64x2x128x2048 ![] bcast_S_S64x2x128x2048 main_cst_10
  let main_v31 : IVec S64x2x128x2048 1 := cmpf .olt main_v29 main_v30
  let main_c_11 : IVec S_ 1 := constantI S_ 1 1#1
  let main_v32 : IVec S_ 1 := (fun x v => Host.reduce IntOp.andi x v reducesTo_S64x2x128x2048_S_d0_1_2_3 h_S_) main_v31 main_c_11
  let main_v33 : IVec S_ 1 := andi main_v28 main_v32
  main_v33

def fn {F : FTy → Type} [FloatOps F] (main_arg0 : FVec F S64x2x128x2048 .f32) (main_arg1 : FVec F S64 .f32) (main_arg2 : FVec F S64x2 .f32) (main_arg3 : FVec F S64x2 .f32) (main_arg4 : FVec F S64x2 .f32) (main_arg5 : FVec F S64x2 .f32) (main_arg6 : FVec F S64x2x128x2048 .f32) : IVec S_ 1 :=
  let main_v0 : FVec F S64x2x128x2048 .f32 := Host.absf main_arg0
  let main_cst : FVec F S_ .f32 := constant S_ .f32 0x7F800000#32
  let main_v1 : FVec F S64x2x128x2048 .f32 := broadcastInDim S64x2x128x2048 ![] bcast_S_S64x2x128x2048 main_cst
  let main_v2 : IVec S64x2x128x2048 1 := cmpf .olt main_v0 main_v1
  let main_c : IVec S_ 1 := constantI S_ 1 1#1
  let main_v3 : IVec S_ 1 := (fun x v => Host.reduce IntOp.andi x v reducesTo_S64x2x128x2048_S_d0_1_2_3 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64x2 .f32 := Host.absf main_arg2
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  let main_v14 : FVec F S64x2 .f32 := Host.absf main_arg3
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg4 main_arg5 main_arg6 main_v13 main_v16
-- ==== Kernel.lean ====
abbrev S64x2x128x2048 : Shape := ⟨4, ![64, 2, 128, 2048]⟩
abbrev S64 : Shape := ⟨1, ![64]⟩
abbrev S64x2 : Shape := ⟨2, ![64, 2]⟩
abbrev S_ : Shape := ⟨0, ![]⟩
abbrev S128 : Shape := ⟨1, ![128]⟩
abbrev S1x1x128 : Shape := ⟨3, ![1, 1, 128]⟩
abbrev S64x2x1 : Shape := ⟨3, ![64, 2, 1]⟩
abbrev S64x2x128 : Shape := ⟨3, ![64, 2, 128]⟩
abbrev S64x128 : Shape := ⟨2, ![64, 128]⟩
abbrev S2048 : Shape := ⟨1, ![2048]⟩
abbrev S1x1x2048 : Shape := ⟨3, ![1, 1, 2048]⟩
abbrev S64x2x2048 : Shape := ⟨3, ![64, 2, 2048]⟩
abbrev S64x2048 : Shape := ⟨2, ![64, 2048]⟩
abbrev S64x1 : Shape := ⟨2, ![64, 1]⟩
abbrev S8x2x128x512 : Shape := ⟨4, ![8, 2, 128, 512]⟩
abbrev S8x128 : Shape := ⟨2, ![8, 128]⟩
abbrev S8x512 : Shape := ⟨2, ![8, 512]⟩
abbrev S8x1 : Shape := ⟨2, ![8, 1]⟩
abbrev S8x1x128x1 : Shape := ⟨4, ![8, 1, 128, 1]⟩
abbrev S8x1x1x512 : Shape := ⟨4, ![8, 1, 1, 512]⟩
abbrev S8x1x128x512 : Shape := ⟨4, ![8, 1, 128, 512]⟩
abbrev S8x1x1x1 : Shape := ⟨4, ![8, 1, 1, 1]⟩

abbrev nBuf : Space → Nat
  | .hbm => 74
  | .vmem => 12
  | .smem => 0
  | _ => 0

abbrev bufTy : (tb : Table) → Fin (tcTables nBuf tb) → BufTy
  | .hbm, ⟨0, _⟩ => ⟨S64x2x128x2048, .f32⟩
  | .hbm, ⟨1, _⟩ => ⟨S64, .f32⟩
  | .hbm, ⟨2, _⟩ => ⟨S64x2, .f32⟩
  | .hbm, ⟨3, _⟩ => ⟨S64x2, .f32⟩
  | .hbm, ⟨4, _⟩ => ⟨S64x2, .f32⟩
  | .hbm, ⟨5, _⟩ => ⟨S64x2, .f32⟩
  | .hbm, ⟨6, _⟩ => ⟨S64x2x128x2048, .f32⟩
  | .hbm, ⟨7, _⟩ => ⟨S_, .f32⟩
  | .hbm, ⟨8, _⟩ => ⟨S64x2, .f32⟩
  | .hbm, ⟨9, _⟩ => ⟨S64x2, .f32⟩
  | .hbm, ⟨10, _⟩ => ⟨S64x2, .f32⟩
  | .hbm, ⟨11, _⟩ => ⟨S64x2, .i32⟩
  | .hbm, ⟨12, _⟩ => ⟨S_, .i32⟩
  | .hbm, ⟨13, _⟩ => ⟨S64x2, .i32⟩
  | .hbm, ⟨14, _⟩ => ⟨S64x2, .i32⟩
  | .hbm, ⟨15, _⟩ => ⟨S64x2, .f32⟩
  | .hbm, ⟨16, _⟩ => ⟨S64x2, .f32⟩
  | .hbm, ⟨17, _⟩ => ⟨S64x2, .f32⟩
  | .hbm, ⟨18, _⟩ => ⟨S64x2, .i32⟩
  | .hbm, ⟨19, _⟩ => ⟨S128, .i32⟩
  | .hbm, ⟨20, _⟩ => ⟨S1x1x128, .i32⟩
  | .hbm, ⟨21, _⟩ => ⟨S64x2x1, .i32⟩
  | .hbm, ⟨22, _⟩ => ⟨S64x2x128, .i32⟩
  | .hbm, ⟨23, _⟩ => ⟨S64x2x128, .i32⟩
  | .hbm, ⟨24, _⟩ => ⟨S64x2x128, .i1⟩
  | .hbm, ⟨25, _⟩ => ⟨S1x1x128, .i32⟩
  | .hbm, ⟨26, _⟩ => ⟨S64x2, .i32⟩
  | .hbm, ⟨27, _⟩ => ⟨S64x2x1, .i32⟩
  | .hbm, ⟨28, _⟩ => ⟨S64x2x128, .i32⟩
  | .hbm, ⟨29, _⟩ => ⟨S64x2x128, .i32⟩
  | .hbm, ⟨30, _⟩ => ⟨S64x2x128, .i1⟩
  | .hbm, ⟨31, _⟩ => ⟨S64x2x128, .i1⟩
  | .hbm, ⟨32, _⟩ => ⟨S_, .i1⟩
  | .hbm, ⟨33, _⟩ => ⟨S64x128, .i1⟩
  | .hbm, ⟨34, _⟩ => ⟨S_, .f32⟩
  | .hbm, ⟨35, _⟩ => ⟨S64x2, .f32⟩
  | .hbm, ⟨36, _⟩ => ⟨S64x2, .f32⟩
  | .hbm, ⟨37, _⟩ => ⟨S64x2, .f32⟩
  | .hbm, ⟨38, _⟩ => ⟨S64x2, .i32⟩
  | .hbm, ⟨39, _⟩ => ⟨S_, .i32⟩
  | .hbm, ⟨40, _⟩ => ⟨S64x2, .i32⟩
  | .hbm, ⟨41, _⟩ => ⟨S64x2, .i32⟩
  | .hbm, ⟨42, _⟩ => ⟨S64x2, .f32⟩
  | .hbm, ⟨43, _⟩ => ⟨S_, .f32⟩
  | .hbm, ⟨44, _⟩ => ⟨S64x2, .f32⟩
  | .hbm, ⟨45, _⟩ => ⟨S64x2, .f32⟩
  | .hbm, ⟨46, _⟩ => ⟨S64x2, .f32⟩
  | .hbm, ⟨47, _⟩ => ⟨S64x2, .f32⟩
  | .hbm, ⟨48, _⟩ => ⟨S64x2, .i32⟩
  | .hbm, ⟨49, _⟩ => ⟨S2048, .i32⟩
  | .hbm, ⟨50, _⟩ => ⟨S1x1x2048, .i32⟩
  | .hbm, ⟨51, _⟩ => ⟨S64x2x1, .i32⟩
  | .hbm, ⟨52, _⟩ => ⟨S64x2x2048, .i32⟩
  | .hbm, ⟨53, _⟩ => ⟨S64x2x2048, .i32⟩
  | .hbm, ⟨54, _⟩ => ⟨S64x2x2048, .i1⟩
  | .hbm, ⟨55, _⟩ => ⟨S1x1x2048, .i32⟩
  | .hbm, ⟨56, _⟩ => ⟨S64x2, .i32⟩
  | .hbm, ⟨57, _⟩ => ⟨S64x2x1, .i32⟩
  | .hbm, ⟨58, _⟩ => ⟨S64x2x2048, .i32⟩
  | .hbm, ⟨59, _⟩ => ⟨S64x2x2048, .i32⟩
  | .hbm, ⟨60, _⟩ => ⟨S64x2x2048, .i1⟩
  | .hbm, ⟨61, _⟩ => ⟨S64x2x2048, .i1⟩
  | .hbm, ⟨62, _⟩ => ⟨S_, .i1⟩
  | .hbm, ⟨63, _⟩ => ⟨S64x2048, .i1⟩
  | .hbm, ⟨64, _⟩ => ⟨S64x128, .i1⟩
  | .hbm, ⟨65, _⟩ => ⟨S64x128, .f32⟩
  | .hbm, ⟨66, _⟩ => ⟨S64x2048, .i1⟩
  | .hbm, ⟨67, _⟩ => ⟨S64x2048, .f32⟩
  | .hbm, ⟨68, _⟩ => ⟨S_, .f32⟩
  | .hbm, ⟨69, _⟩ => ⟨S64, .f32⟩
  | .hbm, ⟨70, _⟩ => ⟨S64, .i1⟩
  | .hbm, ⟨71, _⟩ => ⟨S64, .f32⟩
  | .hbm, ⟨72, _⟩ => ⟨S64x1, .f32⟩
  | .hbm, ⟨73, _⟩ => ⟨S64x2x128x2048, .f32⟩
  | .local _ .vmem, ⟨0, _⟩ => ⟨S8x2x128x512, .f32⟩
  | .local _ .vmem, ⟨1, _⟩ => ⟨S8x2x128x512, .f32⟩
  | .local _ .vmem, ⟨2, _⟩ => ⟨S8x2x128x512, .f32⟩
  | .local _ .vmem, ⟨3, _⟩ => ⟨S8x2x128x512, .f32⟩
  | .local _ .vmem, ⟨4, _⟩ => ⟨S8x128, .f32⟩
  | .local _ .vmem, ⟨5, _⟩ => ⟨S8x128, .f32⟩
  | .local _ .vmem, ⟨6, _⟩ => ⟨S8x512, .f32⟩
  | .local _ .vmem, ⟨7, _⟩ => ⟨S8x512, .f32⟩
  | .local _ .vmem, ⟨8, _⟩ => ⟨S8x1, .f32⟩
  | .local _ .vmem, ⟨9, _⟩ => ⟨S8x1, .f32⟩
  | .local _ .vmem, ⟨10, _⟩ => ⟨S8x2x128x512, .f32⟩
  | .local _ .vmem, ⟨11, _⟩ => ⟨S8x2x128x512, .f32⟩
  | _, _ => ⟨S64x2x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_0 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S8x2x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x2x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S64x2 : S_.BroadcastsInDim S64x2 (![] : Fin 0 → Fin S64x2.rank)
  bcast_S128_S1x1x128_2 : S128.BroadcastsInDim S1x1x128 (![2] : Fin 1 → Fin S1x1x128.rank)
  bcast_S64x2_S64x2x1_0_1 : S64x2.BroadcastsInDim S64x2x1 (![0, 1] : Fin 2 → Fin S64x2x1.rank)
  bcast_S1x1x128_S64x2x128_0_1_2 : S1x1x128.BroadcastsInDim S64x2x128 (![0, 1, 2] : Fin 3 → Fin S64x2x128.rank)
  bcast_S64x2x1_S64x2x128_0_1_2 : S64x2x1.BroadcastsInDim S64x2x128 (![0, 1, 2] : Fin 3 → Fin S64x2x128.rank)
  reducesTo_S64x2x128_S64x128_d1 : S64x2x128.ReducesTo [1] S64x128
  h_S_ : 0 < S_.numel
  bcast_S2048_S1x1x2048_2 : S2048.BroadcastsInDim S1x1x2048 (![2] : Fin 1 → Fin S1x1x2048.rank)
  bcast_S1x1x2048_S64x2x2048_0_1_2 : S1x1x2048.BroadcastsInDim S64x2x2048 (![0, 1, 2] : Fin 3 → Fin S64x2x2048.rank)
  bcast_S64x2x1_S64x2x2048_0_1_2 : S64x2x1.BroadcastsInDim S64x2x2048 (![0, 1, 2] : Fin 3 → Fin S64x2x2048.rank)
  reducesTo_S64x2x2048_S64x2048_d1 : S64x2x2048.ReducesTo [1] S64x2048
  bcast_S_S64 : S_.BroadcastsInDim S64 (![] : Fin 0 → Fin S64.rank)
  bcast_S64_S64x1_0 : S64.BroadcastsInDim S64x1 (![0] : Fin 1 → Fin S64x1.rank)
  inb_S8x2x128x512_S8x2x128x512_0_0_0_0 : ∀ a, (![0, 0, 0, 0] : Fin 4 → Nat) a + S8x2x128x512.size a ≤ S8x2x128x512.size a
  h_S8x2x128x512 : 0 < S8x2x128x512.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S8x128_S8x1x128x1 : S8x128.ShapeCasts S8x1x128x1
  shapeCasts_S8x512_S8x1x1x512 : S8x512.ShapeCasts S8x1x1x512
  broadcasts_S8x1x128x1_S8x1x128x512 : S8x1x128x1.Broadcasts S8x1x128x512
  broadcasts_S8x1x1x512_S8x1x128x512 : S8x1x1x512.Broadcasts S8x1x128x512
  broadcasts_S8x1x128x512_S8x2x128x512 : S8x1x128x512.Broadcasts S8x2x128x512
  shapeCasts_S8x1_S8x1x1x1 : S8x1.ShapeCasts S8x1x1x1
  broadcasts_S8x1x1x1_S8x2x128x512 : S8x1x1x1.Broadcasts S8x2x128x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2x128x512.size a ≤ S64x2x128x2048.size a
  hwx0_0 : ∀ i : grid0.Coords, EltTy.bits .f32 = 32 ∨ (Rect.block (s := S64x2x128x2048) S8x2x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2x128x512.size a ≤ S64x2x128x2048.size a
  hwx0_1 : ∀ i : grid0.Coords, EltTy.bits .f32 = 32 ∨ (Rect.block (s := S64x2x128x2048) S8x2x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S64x2048.size a
  hwx0_3 : ∀ i : grid0.Coords, EltTy.bits .f32 = 32 ∨ (Rect.block (s := S64x2048) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S64x1.size a
  hwx0_4 : ∀ i : grid0.Coords, EltTy.bits .f32 = 32 ∨ (Rect.block (s := S64x1) S8x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x2x128x512.size a ≤ S64x2x128x2048.size a
  hwx0_5 : ∀ i : grid0.Coords, EltTy.bits .f32 = 32 ∨ (Rect.block (s := S64x2x128x2048) S8x2x128x512.size (cc0_transform_5 i) (hinb0_5 i)).WholeWords (EltTy.packing .f32)

variable [Facts₀]

abbrev win0_0 : Pipeline.Window sig grid0 :=
  Pipeline.Window.ofSpec (Memref.whole main_arg0) S8x2x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S8x2x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v57) S8x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v58) S8x2x128x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x2x128x2048 : Shape := ⟨4, ![64, 2, 128, 2048]⟩
abbrev S64 : Shape := ⟨1, ![64]⟩
abbrev S64x2 : Shape := ⟨2, ![64, 2]⟩
abbrev S_ : Shape := ⟨0, ![]⟩
abbrev S128 : Shape := ⟨1, ![128]⟩
abbrev S1x1x128 : Shape := ⟨3, ![1, 1, 128]⟩
abbrev S64x2x1 : Shape := ⟨3, ![64, 2, 1]⟩
abbrev S64x2x128 : Shape := ⟨3, ![64, 2, 128]⟩
abbrev S64x128 : Shape := ⟨2, ![64, 128]⟩
abbrev S2048 : Shape := ⟨1, ![2048]⟩
abbrev S1x1x2048 : Shape := ⟨3, ![1, 1, 2048]⟩
abbrev S64x2x2048 : Shape := ⟨3, ![64, 2, 2048]⟩
abbrev S64x2048 : Shape := ⟨2, ![64, 2048]⟩
abbrev S64x1x128x1 : Shape := ⟨4, ![64, 1, 128, 1]⟩
abbrev S64x1x1x2048 : Shape := ⟨4, ![64, 1, 1, 2048]⟩
abbrev S64x1x128x2048 : Shape := ⟨4, ![64, 1, 128, 2048]⟩
abbrev S64x1x1x1 : Shape := ⟨4, ![64, 1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S64x2x128x2048, .f32⟩
  | .hbm, ⟨1, _⟩ => ⟨S64, .f32⟩
  | .hbm, ⟨2, _⟩ => ⟨S64x2, .f32⟩
  | .hbm, ⟨3, _⟩ => ⟨S64x2, .f32⟩
  | .hbm, ⟨4, _⟩ => ⟨S64x2, .f32⟩
  | .hbm, ⟨5, _⟩ => ⟨S64x2, .f32⟩
  | .hbm, ⟨6, _⟩ => ⟨S64x2x128x2048, .f32⟩
  | .hbm, ⟨7, _⟩ => ⟨S_, .f32⟩
  | .hbm, ⟨8, _⟩ => ⟨S64x2, .f32⟩
  | .hbm, ⟨9, _⟩ => ⟨S64x2, .f32⟩
  | .hbm, ⟨10, _⟩ => ⟨S64x2, .f32⟩
  | .hbm, ⟨11, _⟩ => ⟨S64x2, .i32⟩
  | .hbm, ⟨12, _⟩ => ⟨S_, .i32⟩
  | .hbm, ⟨13, _⟩ => ⟨S64x2, .i32⟩
  | .hbm, ⟨14, _⟩ => ⟨S64x2, .i32⟩
  | .hbm, ⟨15, _⟩ => ⟨S64x2, .f32⟩
  | .hbm, ⟨16, _⟩ => ⟨S64x2, .f32⟩
  | .hbm, ⟨17, _⟩ => ⟨S64x2, .f32⟩
  | .hbm, ⟨18, _⟩ => ⟨S64x2, .i32⟩
  | .hbm, ⟨19, _⟩ => ⟨S128, .i32⟩
  | .hbm, ⟨20, _⟩ => ⟨S1x1x128, .i32⟩
  | .hbm, ⟨21, _⟩ => ⟨S64x2x1, .i32⟩
  | .hbm, ⟨22, _⟩ => ⟨S64x2x128, .i32⟩
  | .hbm, ⟨23, _⟩ => ⟨S64x2x128, .i32⟩
  | .hbm, ⟨24, _⟩ => ⟨S64x2x128, .i1⟩
  | .hbm, ⟨25, _⟩ => ⟨S1x1x128, .i32⟩
  | .hbm, ⟨26, _⟩ => ⟨S64x2, .i32⟩
  | .hbm, ⟨27, _⟩ => ⟨S64x2x1, .i32⟩
  | .hbm, ⟨28, _⟩ => ⟨S64x2x128, .i32⟩
  | .hbm, ⟨29, _⟩ => ⟨S64x2x128, .i32⟩
  | .hbm, ⟨30, _⟩ => ⟨S64x2x128, .i1⟩
  | .hbm, ⟨31, _⟩ => ⟨S64x2x128, .i1⟩
  | .hbm, ⟨32, _⟩ => ⟨S_, .i1⟩
  | .hbm, ⟨33, _⟩ => ⟨S64x128, .i1⟩
  | .hbm, ⟨34, _⟩ => ⟨S_, .f32⟩
  | .hbm, ⟨35, _⟩ => ⟨S64x2, .f32⟩
  | .hbm, ⟨36, _⟩ => ⟨S64x2, .f32⟩
  | .hbm, ⟨37, _⟩ => ⟨S64x2, .f32⟩
  | .hbm, ⟨38, _⟩ => ⟨S64x2, .i32⟩
  | .hbm, ⟨39, _⟩ => ⟨S_, .i32⟩
  | .hbm, ⟨40, _⟩ => ⟨S64x2, .i32⟩
  | .hbm, ⟨41, _⟩ => ⟨S64x2, .i32⟩
  | .hbm, ⟨42, _⟩ => ⟨S64x2, .f32⟩
  | .hbm, ⟨43, _⟩ => ⟨S_, .f32⟩
  | .hbm, ⟨44, _⟩ => ⟨S64x2, .f32⟩
  | .hbm, ⟨45, _⟩ => ⟨S64x2, .f32⟩
  | .hbm, ⟨46, _⟩ => ⟨S64x2, .f32⟩
  | .hbm, ⟨47, _⟩ => ⟨S64x2, .f32⟩
  | .hbm, ⟨48, _⟩ => ⟨S64x2, .i32⟩
  | .hbm, ⟨49, _⟩ => ⟨S2048, .i32⟩
  | .hbm, ⟨50, _⟩ => ⟨S1x1x2048, .i32⟩
  | .hbm, ⟨51, _⟩ => ⟨S64x2x1, .i32⟩
  | .hbm, ⟨52, _⟩ => ⟨S64x2x2048, .i32⟩
  | .hbm, ⟨53, _⟩ => ⟨S64x2x2048, .i32⟩
  | .hbm, ⟨54, _⟩ => ⟨S64x2x2048, .i1⟩
  | .hbm, ⟨55, _⟩ => ⟨S1x1x2048, .i32⟩
  | .hbm, ⟨56, _⟩ => ⟨S64x2, .i32⟩
  | .hbm, ⟨57, _⟩ => ⟨S64x2x1, .i32⟩
  | .hbm, ⟨58, _⟩ => ⟨S64x2x2048, .i32⟩
  | .hbm, ⟨59, _⟩ => ⟨S64x2x2048, .i32⟩
  | .hbm, ⟨60, _⟩ => ⟨S64x2x2048, .i1⟩
  | .hbm, ⟨61, _⟩ => ⟨S64x2x2048, .i1⟩
  | .hbm, ⟨62, _⟩ => ⟨S_, .i1⟩
  | .hbm, ⟨63, _⟩ => ⟨S64x2048, .i1⟩
  | .hbm, ⟨64, _⟩ => ⟨S64x128, .i1⟩
  | .hbm, ⟨65, _⟩ => ⟨S64x1x128x1, .i1⟩
  | .hbm, ⟨66, _⟩ => ⟨S64x2048, .i1⟩
  | .hbm, ⟨67, _⟩ => ⟨S64x1x1x2048, .i1⟩
  | .hbm, ⟨68, _⟩ => ⟨S64x1x128x2048, .i1⟩
  | .hbm, ⟨69, _⟩ => ⟨S64x1x128x2048, .i1⟩
  | .hbm, ⟨70, _⟩ => ⟨S64x1x128x2048, .i1⟩
  | .hbm, ⟨71, _⟩ => ⟨S_, .f32⟩
  | .hbm, ⟨72, _⟩ => ⟨S64x2x128x2048, .i1⟩
  | .hbm, ⟨73, _⟩ => ⟨S64x2x128x2048, .f32⟩
  | .hbm, ⟨74, _⟩ => ⟨S64x2x128x2048, .f32⟩
  | .hbm, ⟨75, _⟩ => ⟨S_, .f32⟩
  | .hbm, ⟨76, _⟩ => ⟨S64x2x128x2048, .f32⟩
  | .hbm, ⟨77, _⟩ => ⟨S64x2x128x2048, .f32⟩
  | .hbm, ⟨78, _⟩ => ⟨S64x2x128x2048, .f32⟩
  | .hbm, ⟨79, _⟩ => ⟨S_, .f32⟩
  | .hbm, ⟨80, _⟩ => ⟨S64, .f32⟩
  | .hbm, ⟨81, _⟩ => ⟨S64, .i1⟩
  | .hbm, ⟨82, _⟩ => ⟨S64x1x1x1, .i1⟩
  | .hbm, ⟨83, _⟩ => ⟨S64x2x128x2048, .i1⟩
  | .hbm, ⟨84, _⟩ => ⟨S64x2x128x2048, .f32⟩
  | _, _ => ⟨S64x2x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_0 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_call0_v0 : Ref sig .tc := ⟨.hbm, 72, rfl⟩
abbrev main_call0_v1 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_call1_v0 : Ref sig .tc := ⟨.hbm, 83, rfl⟩
abbrev main_v64 : Ref sig .tc := ⟨.hbm, 84, rfl⟩

abbrev nD : Nat := 1
abbrev τ : Topo := Topo.v7x

variable {F : FTy → Type} [FloatOps F]

class Facts₀ : Prop where
  bcast_S_S64x2 : S_.BroadcastsInDim S64x2 (![] : Fin 0 → Fin S64x2.rank)
  bcast_S128_S1x1x128_2 : S128.BroadcastsInDim S1x1x128 (![2] : Fin 1 → Fin S1x1x128.rank)
  bcast_S64x2_S64x2x1_0_1 : S64x2.BroadcastsInDim S64x2x1 (![0, 1] : Fin 2 → Fin S64x2x1.rank)
  bcast_S1x1x128_S64x2x128_0_1_2 : S1x1x128.BroadcastsInDim S64x2x128 (![0, 1, 2] : Fin 3 → Fin S64x2x128.rank)
  bcast_S64x2x1_S64x2x128_0_1_2 : S64x2x1.BroadcastsInDim S64x2x128 (![0, 1, 2] : Fin 3 → Fin S64x2x128.rank)
  reducesTo_S64x2x128_S64x128_d1 : S64x2x128.ReducesTo [1] S64x128
  h_S_ : 0 < S_.numel
  bcast_S2048_S1x1x2048_2 : S2048.BroadcastsInDim S1x1x2048 (![2] : Fin 1 → Fin S1x1x2048.rank)
  bcast_S1x1x2048_S64x2x2048_0_1_2 : S1x1x2048.BroadcastsInDim S64x2x2048 (![0, 1, 2] : Fin 3 → Fin S64x2x2048.rank)
  bcast_S64x2x1_S64x2x2048_0_1_2 : S64x2x1.BroadcastsInDim S64x2x2048 (![0, 1, 2] : Fin 3 → Fin S64x2x2048.rank)
  reducesTo_S64x2x2048_S64x2048_d1 : S64x2x2048.ReducesTo [1] S64x2048
  bcast_S64x128_S64x1x128x1_0_2 : S64x128.BroadcastsInDim S64x1x128x1 (![0, 2] : Fin 2 → Fin S64x1x128x1.rank)
  bcast_S64x2048_S64x1x1x2048_0_3 : S64x2048.BroadcastsInDim S64x1x1x2048 (![0, 3] : Fin 2 → Fin S64x1x1x2048.rank)
  bcast_S64x1x128x1_S64x1x128x2048_0_1_2_3 : S64x1x128x1.BroadcastsInDim S64x1x128x2048 (![0, 1, 2, 3] : Fin 4 → Fin S64x1x128x2048.rank)
  bcast_S64x1x1x2048_S64x1x128x2048_0_1_2_3 : S64x1x1x2048.BroadcastsInDim S64x1x128x2048 (![0, 1, 2, 3] : Fin 4 → Fin S64x1x128x2048.rank)
  bcast_S64x1x128x2048_S64x2x128x2048_0_1_2_3 : S64x1x128x2048.BroadcastsInDim S64x2x128x2048 (![0, 1, 2, 3] : Fin 4 → Fin S64x2x128x2048.rank)
  bcast_S_S64x2x128x2048 : S_.BroadcastsInDim S64x2x128x2048 (![] : Fin 0 → Fin S64x2x128x2048.rank)
  bcast_S_S64 : S_.BroadcastsInDim S64 (![] : Fin 0 → Fin S64.rank)
  bcast_S64_S64x1x1x1_0 : S64.BroadcastsInDim S64x1x1x1 (![0] : Fin 1 → Fin S64x1x1x1.rank)
  bcast_S64x1x1x1_S64x2x128x2048_0_1_2_3 : S64x1x1x1.BroadcastsInDim S64x2x128x2048 (![0, 1, 2, 3] : Fin 4 → Fin S64x2x128x2048.rank)

variable [Facts₀]

class Facts : Prop extends Facts₀ where

variable [Facts]
-- ==== Proof.KernelBlocks.lean ====
/-
  The kernel's result array, element by element, from the blocks its grid points write.

  The grid is 8 × 4: point (bi, ti) works on samples 8·bi … 8·bi + 7 and time steps 512·ti … 512·ti + 511, all channels
  and frequencies.  On its blocks the body computes, element by element,
      ap · (spec · (kf · kt) + noise · 0.01) + (1 − ap) · spec,
  reading `kf` at the element's (sample, frequency), `kt` at its (sample, time step) and `ap` at its sample.  Every
  input block is the restriction of its whole array to the rows and columns of the output block, so what the point
  writes back is the same expression of the WHOLE arrays restricted to the output block (`flushed_eq`); the 32 output
  blocks tile the result array (`covered`); hence the array ends holding that expression everywhere (`final`).
-/
import proofs.«160484_j4440996184687_1_alg».proof.Proof.Gen.KernelIdeal.Value
import Idealize.ShloMosaic.Lib.Pipeline.Value

noncomputable section

namespace Cert.KernelIdeal.Augment

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The whole-array expression -/

/-- The row of the [64, 1] "augment this sample" column an element reads. -/
abbrev rowOf (i : S64x2x128x2048.Idx) : S64x1.Idx := fun a => match a with
  | ⟨0, _⟩ => ⟨(i 0).val, (i 0).isLt⟩
  | ⟨1, _⟩ => ⟨0, Nat.one_pos⟩

/-- An element's (sample, frequency). -/
abbrev freqOf (i : S64x2x128x2048.Idx) : S64x128.Idx := fun a => match a with
  | ⟨0, _⟩ => ⟨(i 0).val, (i 0).isLt⟩
  | ⟨1, _⟩ => ⟨(i 2).val, (i 2).isLt⟩

/-- An element's (sample, time step). -/
abbrev timeOf (i : S64x2x128x2048.Idx) : S64x2048.Idx := fun a => match a with
  | ⟨0, _⟩ => ⟨(i 0).val, (i 0).isLt⟩
  | ⟨1, _⟩ => ⟨(i 3).val, (i 3).isLt⟩

/-- The blend of the whole arrays: `ap · (sp · (kf · kt) + nz · 0.01) + (1 − ap) · sp`, element by element. -/
def blended (sp nz : S64x2x128x2048.Idx → Elt F .f32) (kf : S64x128.Idx → Elt F .f32) (kt : S64x2048.Idx → Elt F .f32)
    (ap : S64x1.Idx → Elt F .f32) : S64x2x128x2048.Idx → Elt F .f32 := fun i =>
  FloatOps.addf
    (FloatOps.mulf (ap (rowOf i))
      (FloatOps.addf (FloatOps.mulf (sp i) (FloatOps.mulf (kf (freqOf i)) (kt (timeOf i))))
        (FloatOps.mulf (nz i) (Scalar.ofBits .f32 0x3C23D70A#32))))
    (FloatOps.mulf (FloatOps.subf (Scalar.ofBits .f32 0x3F800000#32) (ap (rowOf i))) (sp i))

/-! ## One block -/

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- What the body leaves in the output's buffer is the generated element-by-element expression of its five loaded
    blocks (each load and the one store go through the whole buffer). -/
theorem body_block (x0 x1 : Vec F S8x2x128x512 .f32) (x2 : Vec F S8x128 .f32) (x3 : Vec F S8x512 .f32) (x4 : Vec F S8x1 .f32) :
    out0_5 x0 x1 x2 x3 x4 = E5 x4 x0 x2 x3 x1 := by
  unfold out0_5
  simp only [View.ld_unit_zero (S := S8x2x128x512) zeros4, View.ld_unit_zero (S := S8x128) zeros2,
    View.ld_unit_zero (S := S8x512) zeros2, View.ld_unit_zero (S := S8x1) zeros2]
  funext y
  exact canon5_eq x4 x0 x2 x3 x1 y

/-- The block expression at a block index `j` is the whole-array expression at an array index `i`, once each block
    element read is the whole array's element at the place `i` names. -/
theorem block_at (A0 A1 : S64x2x128x2048.Idx → Elt F .f32) (A2 : S64x128.Idx → Elt F .f32) (A3 : S64x2048.Idx → Elt F .f32)
    (A4 : S64x1.Idx → Elt F .f32) (B0 B1 : Vec F S8x2x128x512 .f32) (B2 : Vec F S8x128 .f32) (B3 : Vec F S8x512 .f32)
    (B4 : Vec F S8x1 .f32) (j : S8x2x128x512.Idx) (i : S64x2x128x2048.Idx)
    (h0 : B0 j = A0 i) (h1 : B1 j = A1 i) (h2 : B2 (ix5_2 j) = A2 (freqOf i)) (h3 : B3 (ix5_3 j) = A3 (timeOf i))
    (h4 : B4 (ix5_0 j) = A4 (rowOf i)) :
    E5 B4 B0 B2 B3 B1 j = blended A0 A1 A2 A3 A4 i := by
  have e1 : ix5_1 j = j := funext fun a => Fin.ext (by
    match a with | ⟨0, _⟩ => rfl | ⟨1, _⟩ => rfl | ⟨2, _⟩ => rfl | ⟨3, _⟩ => rfl)
  have e4 : ix5_4 j = j := funext fun a => Fin.ext (by
    match a with | ⟨0, _⟩ => rfl | ⟨1, _⟩ => rfl | ⟨2, _⟩ => rfl | ⟨3, _⟩ => rfl)
  have e6 : ix5_6 j = j := funext fun a => Fin.ext (by
    match a with | ⟨0, _⟩ => rfl | ⟨1, _⟩ => rfl | ⟨2, _⟩ => rfl | ⟨3, _⟩ => rfl)
  have e5 : ix5_5 j = ix5_0 j := rfl
  show FloatOps.addf (FloatOps.mulf (B4 (ix5_0 j)) (FloatOps.addf (FloatOps.mulf (B0 (ix5_1 j)) (FloatOps.mulf (B2 (ix5_2 j)) (B3 (ix5_3 j)))) (FloatOps.mulf (B1 (ix5_4 j)) (Scalar.ofBits .f32 0x3C23D70A#32)))) (FloatOps.mulf (FloatOps.subf (Scalar.ofBits .f32 0x3F800000#32) (B4 (ix5_5 j))) (B0 (ix5_6 j))) = _
  rw [e1, e4, e6, e5, h0, h1, h2, h3, h4]
  rfl

/-! ## The index maps over the grid -/

/-- Decided over the 32 grid points: the two big inputs move with the output block; the frequency mask follows the
    output's sample block and stays at frequency block 0; the time mask follows the sample and time blocks; the
    "augment" column follows the sample block; and the output's block indices stay in their ranges. -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = win0_5.index t (3 : Fin 4)
    ∧ win0_1.index t (0 : Fin 4) = win0_5.index t (0 : Fin 4) ∧ win0_1.index t (1 : Fin 4) = win0_5.index t (1 : Fin 4)
    ∧ win0_1.index t (2 : Fin 4) = win0_5.index t (2 : Fin 4) ∧ win0_1.index t (3 : Fin 4) = win0_5.index t (3 : Fin 4)
    ∧ win0_2.index t (0 : Fin 2) = win0_5.index t (0 : Fin 4) ∧ win0_2.index t (1 : Fin 2) = 0
    ∧ win0_3.index t (0 : Fin 2) = win0_5.index t (0 : Fin 4) ∧ win0_3.index t (1 : Fin 2) = win0_5.index t (3 : Fin 4)
    ∧ win0_4.index t (0 : Fin 2) = win0_5.index t (0 : Fin 4) ∧ win0_4.index t (1 : Fin 2) = 0
    ∧ win0_5.index t (0 : Fin 4) ≤ 7 ∧ win0_5.index t (1 : Fin 4) = 0 ∧ win0_5.index t (2 : Fin 4) = 0
    ∧ win0_5.index t (3 : Fin 4) ≤ 3 :=
  (by decide +kernel : ∀ t : Fin grid0.N, _)

/-- Every (sample block, time block) is some grid point's. -/
theorem idx_onto : ∀ (q0 : Fin 8) (q3 : Fin 4), ∃ t : Fin cfg0.N, win0_5.index t = ![q0.val, 0, 0, q3.val] :=
  (by decide +kernel : ∀ (q0 : Fin 8) (q3 : Fin 4), ∃ t : Fin grid0.N, win0_5.index t = ![q0.val, 0, 0, q3.val])

/-! ## What a point writes back -/

/-- For ANY five whole arrays: the block expression of their blocks at point `t` is block `t` of their whole-array
    blend — each input block is the restriction of its array to the rows and columns the output block names. -/
theorem block_of_blend (A0 A1 : S64x2x128x2048.Idx → Elt F .f32) (A2 : S64x128.Idx → Elt F .f32)
    (A3 : S64x2048.Idx → Elt F .f32) (A4 : S64x1.Idx → Elt F .f32) (t : Fin cfg0.N) :
    (cfg0.win 5).cut (grid0.coords t)
        (E5 (((cfg0.win 4).blk t).view.read (Elt F) A4) (((cfg0.win 0).blk t).view.read (Elt F) A0)
          (((cfg0.win 2).blk t).view.read (Elt F) A2) (((cfg0.win 3).blk t).view.read (Elt F) A3)
          (((cfg0.win 1).blk t).view.read (Elt F) A1))
      = ((cfg0.win 5).blk t).view.read (Elt F) (blended A0 A1 A2 A3 A4) := by
  obtain ⟨a0, a1, a2, a3, b0, b1, b2, b3, f0, f1, g0, g1, p0, p1, o0, o1, o2, o3⟩ := idx_facts t
  funext j
  have hj0 : (j 0).val < 8 := (j 0).isLt
  have hj1 : (j 1).val < 2 := (j 1).isLt
  have hj2 : (j 2).val < 128 := (j 2).isLt
  have hj3 : (j 3).val < 512 := (j 3).isLt
  show E5 (((cfg0.win 4).blk t).view.read (Elt F) A4) (((cfg0.win 0).blk t).view.read (Elt F) A0)
      (((cfg0.win 2).blk t).view.read (Elt F) A2) (((cfg0.win 3).blk t).view.read (Elt F) A3)
      (((cfg0.win 1).blk t).view.read (Elt F) A1) j
    = blended A0 A1 A2 A3 A4 (((cfg0.win 5).blk t).view.emb j)
  refine block_at A0 A1 A2 A3 A4 _ _ _ _ _ j (((cfg0.win 5).blk t).view.emb j) ?_ ?_ ?_ ?_ ?_
  · show A0 (((cfg0.win 0).blk t).view.emb j) = A0 (((cfg0.win 5).blk t).view.emb j)
    refine congrArg A0 (funext fun a => Fin.ext ?_)
    match a with
    | ⟨0, _⟩ => show win0_0.index t (0 : Fin 4) * 8 + 1 * (j 0).val = win0_5.index t (0 : Fin 4) * 8 + 1 * (j 0).val; omega
    | ⟨1, _⟩ => show win0_0.index t (1 : Fin 4) * 2 + 1 * (j 1).val = win0_5.index t (1 : Fin 4) * 2 + 1 * (j 1).val; omega
    | ⟨2, _⟩ => show win0_0.index t (2 : Fin 4) * 128 + 1 * (j 2).val = win0_5.index t (2 : Fin 4) * 128 + 1 * (j 2).val; omega
    | ⟨3, _⟩ => show win0_0.index t (3 : Fin 4) * 512 + 1 * (j 3).val = win0_5.index t (3 : Fin 4) * 512 + 1 * (j 3).val; omega
  · show A1 (((cfg0.win 1).blk t).view.emb j) = A1 (((cfg0.win 5).blk t).view.emb j)
    refine congrArg A1 (funext fun a => Fin.ext ?_)
    match a with
    | ⟨0, _⟩ => show win0_1.index t (0 : Fin 4) * 8 + 1 * (j 0).val = win0_5.index t (0 : Fin 4) * 8 + 1 * (j 0).val; omega
    | ⟨1, _⟩ => show win0_1.index t (1 : Fin 4) * 2 + 1 * (j 1).val = win0_5.index t (1 : Fin 4) * 2 + 1 * (j 1).val; omega
    | ⟨2, _⟩ => show win0_1.index t (2 : Fin 4) * 128 + 1 * (j 2).val = win0_5.index t (2 : Fin 4) * 128 + 1 * (j 2).val; omega
    | ⟨3, _⟩ => show win0_1.index t (3 : Fin 4) * 512 + 1 * (j 3).val = win0_5.index t (3 : Fin 4) * 512 + 1 * (j 3).val; omega
  · show A2 (((cfg0.win 2).blk t).view.emb (ix5_2 j)) = A2 (freqOf (((cfg0.win 5).blk t).view.emb j))
    refine congrArg A2 (funext fun a => Fin.ext ?_)
    match a with
    | ⟨0, _⟩ => show win0_2.index t (0 : Fin 2) * 8 + 1 * (j 0).val = win0_5.index t (0 : Fin 4) * 8 + 1 * (j 0).val; omega
    | ⟨1, _⟩ => show win0_2.index t (1 : Fin 2) * 128 + 1 * (j 2).val = win0_5.index t (2 : Fin 4) * 128 + 1 * (j 2).val; omega
  · show A3 (((cfg0.win 3).blk t).view.emb (ix5_3 j)) = A3 (timeOf (((cfg0.win 5).blk t).view.emb j))
    refine congrArg A3 (funext fun a => Fin.ext ?_)
    match a with
    | ⟨0, _⟩ => show win0_3.index t (0 : Fin 2) * 8 + 1 * (j 0).val = win0_5.index t (0 : Fin 4) * 8 + 1 * (j 0).val; omega
    | ⟨1, _⟩ => show win0_3.index t (1 : Fin 2) * 512 + 1 * (j 3).val = win0_5.index t (3 : Fin 4) * 512 + 1 * (j 3).val; omega
  · show A4 (((cfg0.win 4).blk t).view.emb (ix5_0 j)) = A4 (rowOf (((cfg0.win 5).blk t).view.emb j))
    refine congrArg A4 (funext fun a => Fin.ext ?_)
    match a with
    | ⟨0, _⟩ => show win0_4.index t (0 : Fin 2) * 8 + 1 * (j 0).val = win0_5.index t (0 : Fin 4) * 8 + 1 * (j 0).val; omega
    | ⟨1, _⟩ => show win0_4.index t (1 : Fin 2) * 1 + 1 * 0 = 0; omega

/-- WHAT POINT `t` WRITES BACK is block `t` of the whole-array blend of the five arrays as the region finds them. -/
theorem flushed_eq (c : Dev nD) (t : Fin cfg0.N) :
    (dats m 0 c).flushed 5 t = ((cfg0.win 5).blk t).view.read (Elt F)
      (blended (V m c (Pipeline.arrRef spec0 0)) (V m c (Pipeline.arrRef spec0 1)) (V m c (Pipeline.arrRef spec0 2))
        (V m c (Pipeline.arrRef spec0 3)) (V m c (Pipeline.arrRef spec0 4))) := by
  rw [flushed5 m c t, body_block (iblk m c 0 t) (iblk m c 1 t) (iblk m c 2 t) (iblk m c 3 t) (iblk m c 4 t)]
  exact block_of_blend (V m c (Pipeline.arrRef spec0 0)) (V m c (Pipeline.arrRef spec0 1)) (V m c (Pipeline.arrRef spec0 2))
    (V m c (Pipeline.arrRef spec0 3)) (V m c (Pipeline.arrRef spec0 4)) t

/-! ## The blocks tile the array -/

/-- An index of the array is in point `t`'s block iff each coordinate is in the block's range on its axis. -/
theorem mem_blk (t : Fin cfg0.N) (i : S64x2x128x2048.Idx) :
    i ∈ ((cfg0.win 5).blk t).view.set ↔ ∀ a : Fin 4, win0_5.index t a * S8x2x128x512.size a ≤ (i a).val
      ∧ (i a).val < win0_5.index t a * S8x2x128x512.size a + S8x2x128x512.size a := by
  show i ∈ ((View.whole main_v58).slice (win0_5.rect t)).set ↔ _
  rw [View.set_slice_whole, Rect.mem_set_unit]
  exact Iff.rfl

/-- Every element of the result array lies in the block of the point at its sample block and time block. -/
theorem covered (i : S64x2x128x2048.Idx) :
    ∃ t : Fin cfg0.N, (cfg0.win 5).flush t = true ∧ i ∈ ((cfg0.win 5).blk t).view.set := by
  have hi0 : (i 0).val < 64 := (i 0).isLt
  have hi1 : (i 1).val < 2 := (i 1).isLt
  have hi2 : (i 2).val < 128 := (i 2).isLt
  have hi3 : (i 3).val < 2048 := (i 3).isLt
  obtain ⟨t, ht⟩ := idx_onto ⟨(i 0).val / 8, by omega⟩ ⟨(i 3).val / 512, by omega⟩
  have q0 : win0_5.index t (0 : Fin 4) = (i 0).val / 8 := congrFun ht 0
  have q1 : win0_5.index t (1 : Fin 4) = 0 := congrFun ht 1
  have q2 : win0_5.index t (2 : Fin 4) = 0 := congrFun ht 2
  have q3 : win0_5.index t (3 : Fin 4) = (i 3).val / 512 := congrFun ht 3
  refine ⟨t, flush0_5 t, ?_⟩
  rw [mem_blk]
  intro a
  match a with
  | ⟨0, _⟩ => show win0_5.index t (0 : Fin 4) * 8 ≤ (i 0).val ∧ (i 0).val < win0_5.index t (0 : Fin 4) * 8 + 8; omega
  | ⟨1, _⟩ => show win0_5.index t (1 : Fin 4) * 2 ≤ (i 1).val ∧ (i 1).val < win0_5.index t (1 : Fin 4) * 2 + 2; omega
  | ⟨2, _⟩ => show win0_5.index t (2 : Fin 4) * 128 ≤ (i 2).val ∧ (i 2).val < win0_5.index t (2 : Fin 4) * 128 + 128; omega
  | ⟨3, _⟩ => show win0_5.index t (3 : Fin 4) * 512 ≤ (i 3).val ∧ (i 3).val < win0_5.index t (3 : Fin 4) * 512 + 512; omega

/-! ## The array after the run -/

/-- THE RESULT ARRAY after the run is the whole-array blend of the arrays as the region finds them. -/
theorem final (c : Dev nD) : (dats m 0 c).arrAt 5 cfg0.N
    = blended (V m c (Pipeline.arrRef spec0 0)) (V m c (Pipeline.arrRef spec0 1)) (V m c (Pipeline.arrRef spec0 2))
        (V m c (Pipeline.arrRef spec0 3)) (V m c (Pipeline.arrRef spec0 4)) :=
  (dats m 0 c).arrAt_eq_of_cover 5 _ (fun t _ => flushed_eq m c t) covered

end Cert.KernelIdeal.Augment

end
-- ==== Proof.HostMasks.lean ====
/-
  The three small arrays the kernel's host code hands to the region, in terms of the reference's own masks.

  Before the region the kernel's program computes, from the four small parameter arrays, the two band masks exactly as
  the reference does (the same operations in the same order), negates them, and converts the one-bit words to numbers:
  the [64,128] frequency keep-array is the reference's frequency keep-words read as numbers, the [64,2048] time
  keep-array likewise, and the [64,1] column is the reference's "apply_u ≤ 0.5" words read as numbers, one per row.
  Both sides being the same chain of operations, each equation holds by unfolding the names.
-/
import proofs.«160484_j4440996184687_1_alg».proof.Proof.Gen.KernelIdeal.Frame
import proofs.«160484_j4440996184687_1_alg».proof.Proof.Gen.ReferenceIdeal.Read
import Idealize.ShloMosaic.Lib.StableHlo.Run

noncomputable section

namespace Cert.KernelIdeal.HostMasks

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The frequency keep-array the region finds is the reference's frequency keep-words read as numbers. -/
theorem keep_freq (c : Dev nD) :
    (V m c main_v51 : S64x128.Idx → Elt F .f32)
      = uitofp .f32 (Cert.ReferenceIdeal.Read.val_main_v50 (F := F)
          (m ((c : Thread nD τ).loc main_arg2)) (m ((c : Thread nD τ).loc main_arg3))) := by
  dsimp only [V, hostOps0]
  after_results_simp <;> rfl

/-- The time keep-array the region finds is the reference's time keep-words read as numbers. -/
theorem keep_time (c : Dev nD) :
    (V m c main_v53 : S64x2048.Idx → Elt F .f32)
      = uitofp .f32 (Cert.ReferenceIdeal.Read.val_main_v52 (F := F)
          (m ((c : Thread nD τ).loc main_arg4)) (m ((c : Thread nD τ).loc main_arg5))) := by
  dsimp only [V, hostOps0]
  after_results_simp <;> rfl

/-- The "augment this sample" column the region finds is the reference's comparison words read as numbers, one per row. -/
theorem augment_col (c : Dev nD) :
    (V m c main_v57 : S64x1.Idx → Elt F .f32)
      = broadcastInDim S64x1 ![0] bcast_S64_S64x1_0 (uitofp .f32 (Cert.ReferenceIdeal.Read.val_main_v62 (F := F)
          (m ((c : Thread nD τ).loc main_arg1)))) := by
  dsimp only [V, hostOps0]
  after_results_simp <;> rfl

end Cert.KernelIdeal.HostMasks

end
-- ==== Proof.RefSelect.lean ====
/-
  The reference's result, element by element.

  With `fm : [64,128]` and `tm : [64,2048]` the one-bit KEEP words of a sample's frequencies and time steps (the
  negated band masks, functions of the four small parameter arrays alone) and `ap : [64]` the one-bit word "this
  sample is augmented" (`apply_u ≤ 0.5`), the reference's result at the element (b, ch, f, t) is

      if ap b then ((if fm (b, f) ∧ tm (b, t) then spec else 0) + noise · 0.01) else spec

  with `spec`, `noise` read at (b, ch, f, t): every operation between the masks and the result is a broadcast, a
  word-wise `and`, a `select`, a product or a sum, each of which reads ONE element of each operand.
-/
import proofs.«160484_j4440996184687_1_alg».proof.Proof.Gen.ReferenceIdeal.Read

noncomputable section

namespace Cert.ReferenceIdeal.Augment

open Cert.ReferenceIdeal Cert.ReferenceIdeal.Read Idealize.ShloMosaic

variable {F : FTy → Type} [FloatOps F]

/-- The sample an element belongs to. -/
abbrev sampleOf (i : S64x2x128x2048.Idx) : S64.Idx := fun a => match a with
  | ⟨0, _⟩ => ⟨(i 0).val, (i 0).isLt⟩

/-- An element's (sample, frequency). -/
abbrev freqOf (i : S64x2x128x2048.Idx) : S64x128.Idx := fun a => match a with
  | ⟨0, _⟩ => ⟨(i 0).val, (i 0).isLt⟩
  | ⟨1, _⟩ => ⟨(i 2).val, (i 2).isLt⟩

/-- An element's (sample, time step). -/
abbrev timeOf (i : S64x2x128x2048.Idx) : S64x2048.Idx := fun a => match a with
  | ⟨0, _⟩ => ⟨(i 0).val, (i 0).isLt⟩
  | ⟨1, _⟩ => ⟨(i 3).val, (i 3).isLt⟩

/-- The result as a selection by the three one-bit words. -/
def selected (x0 x6 : S64x2x128x2048.Idx → Elt F .f32) (ap : S64.Idx → BitVec 1) (fm : S64x128.Idx → BitVec 1)
    (tm : S64x2048.Idx → BitVec 1) : S64x2x128x2048.Idx → Elt F .f32 := fun i =>
  Scalar.select (ap (sampleOf i))
    (FloatOps.addf (Scalar.select (IntOp.andi (fm (freqOf i)) (tm (timeOf i))) (x0 i) (FloatOps.ofBits .f32 0x00000000#32))
      (FloatOps.mulf (x6 i) (FloatOps.ofBits .f32 0x3C23D70A#32)))
    (x0 i)

/-- The reference's last stage is that selection, by the keep words of its own band masks. -/
theorem result_eq (x0 : S64x2x128x2048.Idx → Elt F .f32) (x1 : S64.Idx → Elt F .f32) (x2 x3 x4 x5 : S64x2.Idx → Elt F .f32)
    (x6 : S64x2x128x2048.Idx → Elt F .f32) :
    val_main_v64 (F := F) x0 x1 x2 x3 x4 x5 x6
      = selected x0 x6 (val_main_v62 (F := F) x1) (val_main_v50 (F := F) x2 x3) (val_main_v52 (F := F) x4 x5) := by
  funext i
  have e1 : idx_main_v63 (idx_main_call1_v0 i) = sampleOf i :=
    funext fun a => Fin.ext (by match a with | ⟨0, _⟩ => rfl)
  have e2 : idx_main_v51 (idx_main_v54 (idx_main_call0_v0 i)) = freqOf i :=
    funext fun a => Fin.ext (by match a with | ⟨0, _⟩ => rfl | ⟨1, _⟩ => rfl)
  have e3 : idx_main_v53 (idx_main_v55 (idx_main_call0_v0 i)) = timeOf i :=
    funext fun a => Fin.ext (by match a with | ⟨0, _⟩ => rfl | ⟨1, _⟩ => rfl)
  rw [val_main_v64_apply, val_main_call1_v0_apply, val_main_v63_apply, val_main_v60_apply, val_main_v57_apply,
    val_main_call0_v0_apply, val_main_v56_apply, val_main_v54_apply, val_main_v51_apply, val_main_v55_apply,
    val_main_v53_apply, val_main_call0_v1_apply, val_main_cst_5_apply, val_main_v59_apply, val_main_v58_apply,
    val_main_cst_6_apply, e1, e2, e3]
  rfl

end Cert.ReferenceIdeal.Augment

end
-- ==== Proof.Blend.lean ====
/-
  The scalar law behind the augmentation, on the extended reals.

  A one-bit word `a` read as a number is `0` or `1`.  The kernel blends with numbers,
      a · (s · (kf · kt) + n · c) + (1 − a) · s,
  where `kf`, `kt` (keep this frequency / this time step) and `a` (augment this sample) are one-bit words read as
  numbers; the reference selects with the words themselves,
      if a then ((if kf ∧ kt then s else 0) + n · c) else s.
  The two agree for EVERY extended real `s`, `n`, `c`: the only products met are by the numbers `0` and `1`
  (`0 · x = 0` and `1 · x = x` hold at the infinities too), and the only difference is `1 − 1 = 0` or `1 − 0 = 1`.
-/
import Idealize.ShloMosaic.PureOps.Ideal.Laws
import Idealize.ShloMosaic.Lib.IdealHost

noncomputable section

namespace Cert.Augment

open Idealize.ShloMosaic

/-- A one-bit word is zero or one. -/
theorem bit_cases (a : BitVec 1) : a = 0#1 ∨ a = 1#1 := by
  revert a; decide

/-- On the extended reals `1 − 1 = 0` (one is finite). -/
theorem one_sub_one : (1 : EReal) - 1 = 0 := by
  rw [← EReal.coe_one, ← EReal.coe_sub, sub_self, EReal.coe_zero]

/-- THE LAW: blending with the words read as numbers is selecting with the words. -/
theorem blend (a kf kt : BitVec 1) (s n c : EReal) :
    ((a.toNat : ℝ) : EReal) * (s * (((kf.toNat : ℝ) : EReal) * ((kt.toNat : ℝ) : EReal)) + n * c)
        + ((1 : EReal) - ((a.toNat : ℝ) : EReal)) * s
      = Scalar.select a (Scalar.select (IntOp.andi kf kt) s 0 + n * c) s := by
  rcases bit_cases a with rfl | rfl <;> rcases bit_cases kf with rfl | rfl <;> rcases bit_cases kt with rfl | rfl <;>
    simp [Scalar.select, IntOp.andi, one_sub_one]

end Cert.Augment

end
-- ==== Proof.KernelResult.lean ====
/-
  The kernel's result array at the exact instance, as the reference's selection.

  After the run the result array is the whole-array blend
      ap · (spec · (kf · kt) + noise · 0.01) + (1 − ap) · spec
  of the arrays the region finds (the blocks tile it); the region finds `spec` and `noise` as launched, and finds
  `kf`, `kt`, `ap` as the reference's keep-words and comparison words read as the numbers 0 and 1 (the host code
  before the region is the reference's own mask computation).  On the extended reals blending with those numbers is
  selecting with the words (the scalar law), the literal `1.0` being the number one and `0.0` the number zero; so the
  result array is the reference's selection of the launched arrays, for every input, finite or not.
-/
import proofs.«160484_j4440996184687_1_alg».proof.Proof.KernelBlocks
import proofs.«160484_j4440996184687_1_alg».proof.Proof.HostMasks
import proofs.«160484_j4440996184687_1_alg».proof.Proof.RefSelect
import proofs.«160484_j4440996184687_1_alg».proof.Proof.Blend
import Idealize.ShloMosaic.Lib.IdealHost

noncomputable section

namespace Cert.KernelIdeal.Augment

open Cert.KernelIdeal Cert.KernelIdeal.Gen Idealize.ShloMosaic Idealize.ShloMosaic.TcCoe Idealize.SL.Sem

/-- At the exact instance the blend by the words read as numbers is the selection by the words. -/
theorem blended_eq_selected (x0 x6 : S64x2x128x2048.Idx → EReal) (ap : S64.Idx → BitVec 1) (fm : S64x128.Idx → BitVec 1)
    (tm : S64x2048.Idx → BitVec 1) :
    blended (F := Ideal) x0 x6 (uitofp (F := Ideal) .f32 fm) (uitofp (F := Ideal) .f32 tm)
        (broadcastInDim S64x1 ![0] bcast_S64_S64x1_0 (uitofp (F := Ideal) .f32 ap))
      = Cert.ReferenceIdeal.Augment.selected (F := Ideal) x0 x6 ap fm tm := by
  funext i
  have hb : broadcastInDim S64x1 ![0] bcast_S64_S64x1_0 (uitofp (F := Ideal) .f32 ap) (rowOf i)
      = (((ap (Cert.ReferenceIdeal.Augment.sampleOf i)).toNat : ℝ) : EReal) :=
    broadcastInDim_apply _ bcast_S64_S64x1_0 (uitofp (F := Ideal) .f32 ap) (rowOf i)
      (Cert.ReferenceIdeal.Augment.sampleOf i)
      (fun a => match a with
        | ⟨0, _⟩ => by show (i 0).val = if (64 : Nat) = 1 then 0 else (i 0).val; rw [if_neg (by decide)])
  have h1 : Scalar.ofBits (F := Ideal) .f32 0x3F800000#32 = 1 := Ideal.ofBits_one_f32
  have h0 : FloatOps.ofBits (F := Ideal) .f32 0x00000000#32 = 0 := Ideal.ofBits_zero_f32
  unfold blended Cert.ReferenceIdeal.Augment.selected
  rw [hb, h1, h0]
  exact Cert.Augment.blend (ap (Cert.ReferenceIdeal.Augment.sampleOf i)) (fm (Cert.ReferenceIdeal.Augment.freqOf i))
    (tm (Cert.ReferenceIdeal.Augment.timeOf i)) (x0 i) (x6 i) (Ideal.ofBits .f32 0x3C23D70A#32)

variable (m : (ℓ : Loc nD τ sig) → Buf (Elt Ideal) ℓ) (ρ : Dev nD → PrngReg)

/-- The result: the reference's selection of the launched arrays. -/
def result (c : Dev nD) : Buf (Elt Ideal) ((c : Thread nD τ).loc main_v58) :=
  Cert.ReferenceIdeal.Augment.selected (F := Ideal)
    (m ((c : Thread nD τ).loc main_arg0)) (m ((c : Thread nD τ).loc main_arg6))
    (Cert.ReferenceIdeal.Read.val_main_v62 (F := Ideal) (m ((c : Thread nD τ).loc main_arg1)))
    (Cert.ReferenceIdeal.Read.val_main_v50 (F := Ideal) (m ((c : Thread nD τ).loc main_arg2)) (m ((c : Thread nD τ).loc main_arg3)))
    (Cert.ReferenceIdeal.Read.val_main_v52 (F := Ideal) (m ((c : Thread nD τ).loc main_arg4)) (m ((c : Thread nD τ).loc main_arg5)))

/-- THE RESULT ARRAY after the run is that selection. -/
theorem final_selected (c : Dev nD) : (dats m 0 c).arrAt 5 cfg0.N = result m c := by
  have e0 : V m c (Pipeline.arrRef spec0 0) = m ((c : Thread nD τ).loc main_arg0) := V_main_arg0 m c
  have e1 : V m c (Pipeline.arrRef spec0 1) = m ((c : Thread nD τ).loc main_arg6) := V_main_arg6 m c
  have e2 : V m c (Pipeline.arrRef spec0 2)
      = uitofp (F := Ideal) .f32 (Cert.ReferenceIdeal.Read.val_main_v50 (F := Ideal)
          (m ((c : Thread nD τ).loc main_arg2)) (m ((c : Thread nD τ).loc main_arg3))) :=
    Cert.KernelIdeal.HostMasks.keep_freq m c
  have e3 : V m c (Pipeline.arrRef spec0 3)
      = uitofp (F := Ideal) .f32 (Cert.ReferenceIdeal.Read.val_main_v52 (F := Ideal)
          (m ((c : Thread nD τ).loc main_arg4)) (m ((c : Thread nD τ).loc main_arg5))) :=
    Cert.KernelIdeal.HostMasks.keep_time m c
  have e4 : V m c (Pipeline.arrRef spec0 4)
      = broadcastInDim S64x1 ![0] bcast_S64_S64x1_0 (uitofp (F := Ideal) .f32 (Cert.ReferenceIdeal.Read.val_main_v62 (F := Ideal)
          (m ((c : Thread nD τ).loc main_arg1)))) :=
    Cert.KernelIdeal.HostMasks.augment_col m c
  refine (final m c).trans ?_
  rw [e0, e1, e2, e3, e4]
  exact blended_eq_selected _ _ _ _ _

/-- The run, read: the result array at the selection, the arguments unchanged. -/
theorem run : θ_run defs (onTc (τ := τ) (main (F := Ideal))) ⟨m, fun _ => 0, ρ⟩ fun r => ∀ c : Dev nD,
      r.2.mem ((c : Thread nD τ).loc main_v58) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_selected m c), (h c).2⟩)
    (Cert.KernelIdeal.Value.run_blocks m ρ)

end Cert.KernelIdeal.Augment

end
-- ==== Proof.lean ====
/-
  Spectrogram augmentation: the Pallas kernel against its jnp reference, on the extended reals.

  Both programs compute, from the four small parameter arrays, two band masks per sample — a frequency mask [64,128]
  and a time mask [64,2048] — and the flag "apply_u ≤ 0.5" per sample, by the SAME host operations.  The reference then
  selects, per element (b, ch, f, t):
      if flag b then ((if keep_f (b,f) ∧ keep_t (b,t) then spec else 0) + noise · 0.01) else spec.
  The kernel converts the negated masks and the flag to the numbers 0 / 1 and blends on an 8 × 4 grid of blocks:
      a · (spec · (kf · kt) + noise · 0.01) + (1 − a) · spec.
  The two agree at every extended real: the only multiplications that differ are by the numbers 0 and 1, and
  0 · x = 0, 1 · x = x, 1 − 1 = 0 hold there without any finiteness (Proof/Blend.lean).  So the precondition is
  never opened.

  Proof/KernelBlocks.lean   the result array from the grid's blocks: one whole-array blend of the arrays the region finds
  Proof/HostMasks.lean      the three small arrays the region finds, as the reference's mask words read as numbers
  Proof/RefSelect.lean      the reference's last stage read element by element: the selection above
  Proof/KernelResult.lean   the kernel's run at the exact instance, its result array at that selection
  The three frames are the generated frame runs (the reference's: its generated run with the result dropped); no
  operation was rewritten by the idealization, so there is nothing to preserve.
-/
import proofs.«160484_j4440996184687_1_alg».proof.Defs
import proofs.«160484_j4440996184687_1_alg».proof.Proof.Gen.Kernel
import proofs.«160484_j4440996184687_1_alg».proof.Proof.Gen.Kernel.Skeleton
import proofs.«160484_j4440996184687_1_alg».proof.Proof.Gen.Kernel.Launch
import proofs.«160484_j4440996184687_1_alg».proof.Proof.Gen.Kernel.Points
import proofs.«160484_j4440996184687_1_alg».proof.Proof.Gen.Kernel.Frame
import proofs.«160484_j4440996184687_1_alg».proof.Proof.Gen.KernelIdeal
import proofs.«160484_j4440996184687_1_alg».proof.Proof.Gen.KernelIdeal.Skeleton
import proofs.«160484_j4440996184687_1_alg».proof.Proof.Gen.KernelIdeal.Launch
import proofs.«160484_j4440996184687_1_alg».proof.Proof.Gen.KernelIdeal.Points
import proofs.«160484_j4440996184687_1_alg».proof.Proof.Gen.KernelIdeal.Frame
import proofs.«160484_j4440996184687_1_alg».proof.Proof.Gen.ReferenceIdeal
import proofs.«160484_j4440996184687_1_alg».proof.Proof.Gen.Pre_finite_inputs
import proofs.«160484_j4440996184687_1_alg».proof.Proof.Gen.KernelIdeal.Value
import proofs.«160484_j4440996184687_1_alg».proof.Proof.Gen.ReferenceIdeal.Run
import proofs.«160484_j4440996184687_1_alg».proof.Proof.Gen.ReferenceIdeal.Read
import proofs.«160484_j4440996184687_1_alg».proof.Proof.KernelResult
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel at the exact instance. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result: the kernel's array is the
    reference's selection of the launched arrays, and the reference's last stage is that selection. -/
theorem algebraic : Cert.algebraic_KernelIdeal_ReferenceIdeal := by
  intro m ρ m' ρ' _ hagree
  refine ⟨fun c => Cert.KernelIdeal.Augment.result m c, Cert.KernelIdeal.Augment.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, Cert.ReferenceIdeal.Augment.result_eq, (hagree c).1, (hagree c).2.1,
    (hagree c).2.2.1, (hagree c).2.2.2.1, (hagree c).2.2.2.2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
